-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S128x128 .f32) (main_arg3 : FVec F S128 .f32) (main_arg4 : FVec F S128x128 .f32) (main_arg5 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S128x128 : Shape := ⟨2, ![128, 128]⟩
abbrev S128 : Shape := ⟨1, ![128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S128x64 : Shape := ⟨2, ![128, 64]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 44
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S_, .i32⟩
  | .hbm, ⟨24, _⟩ => ⟨S1200000, .i32⟩
  | .hbm, ⟨25, _⟩ => ⟨S_, .i32⟩
  | .hbm, ⟨26, _⟩ => ⟨S100000, .i32⟩
  | .hbm, ⟨27, _⟩ => ⟨S1200000x1, .i32⟩
  | .hbm, ⟨28, _⟩ => ⟨S100000, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S128x64, .f32⟩
  | .hbm, ⟨37, _⟩ => ⟨S128x64, .f32⟩
  | .hbm, ⟨38, _⟩ => ⟨S64x128, .f32⟩
  | .hbm, ⟨39, _⟩ => ⟨S64x128, .f32⟩
  | .hbm, ⟨40, _⟩ => ⟨S128x128, .f32⟩
  | .hbm, ⟨41, _⟩ => ⟨S1x128, .f32⟩
  | .hbm, ⟨42, _⟩ => ⟨S1x128, .f32⟩
  | .hbm, ⟨43, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x128_S128x64_0_0 : S128x128.Slices ![0, 0] S128x64
  slices_S128x128_S128x64_0_64 : S128x128.Slices ![0, 64] S128x64
  transposes_S128x64_S64x128_1_0 : S128x64.Transposes [1, 0] S64x128
  transposes_S128x128_S128x128_1_0 : S128x128.Transposes [1, 0] S128x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x128_S5000x128_0_0 : ∀ a, (![0, 0] : Fin 2 → Nat) a + S5000x128.size a ≤ S5000x128.size a
  h_S5000x128 : 0 < S5000x128.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S128x128 : Shape := ⟨2, ![128, 128]⟩
abbrev S128 : Shape := ⟨1, ![128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S100000x64, .f32⟩
  | .hbm, ⟨21, _⟩ => ⟨S1200000x1, .i32⟩
  | .hbm, ⟨22, _⟩ => ⟨S100000x64, .f32⟩
  | .hbm, ⟨23, _⟩ => ⟨S_, .f32⟩
  | .hbm, ⟨24, _⟩ => ⟨S1200000, .f32⟩
  | .hbm, ⟨25, _⟩ => ⟨S_, .f32⟩
  | .hbm, ⟨26, _⟩ => ⟨S100000, .f32⟩
  | .hbm, ⟨27, _⟩ => ⟨S1200000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x128_S128x128_S100000x128_1_0_0_1_n_n_wf : DotDims.WF S100000x128 S128x128 S100000x128 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The function both programs compute, as one expression of arrays read index by index on the extended reals.

  A two-layer perceptron on the rows of two [n, 64] arrays `A` (the neighbourhood means) and `X` (the node's own
  features):  hidden(p, k) = max (∑ⱼ A(p,j)·U(j,k) + ∑ⱼ X(p,j)·U'(j,k) + c(0,k)) 0  over j < 64, and
  out(p, q) = ∑ₖ hidden(p,k)·V(k,q) + d(0,q)  over k < 128.  `Gk` states it over the arrays as the kernel is handed
  them (U, U' : [64,128], V : [128,128], c, d : [1,128]); `G` over the weight matrices as given, W1 : [128,128] with
  U(j,k) = W1(k,j) and U'(j,k) = W1(k,64+j), W2 with V(k,q) = W2(q,k), and the bias vectors.  The row count `n` is a
  parameter: the same expression describes the whole [100000, 128] result and one block of 5000 rows.

  The one algebraic fact joining the two programs is that a sum over 128 terms is the sum over the first 64 plus the
  sum over the last 64 (`sum_lo_hi`): addition on the extended reals is commutative and associative, so no finiteness
  is needed.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev T (n0 n1 : Nat) : Type := (⟨2, ![n0, n1]⟩ : Shape).Idx → EReal
/-- A rank-1 array of extended reals. -/
abbrev R (n0 : Nat) : Type := (⟨1, ![n0]⟩ : Shape).Idx → EReal

/-- Column `j` of the first half of a 128-wide row. -/
def lo (j : Fin 64) : Fin 128 := ⟨j.val, by have := j.isLt; omega⟩
/-- Column `j` of the second half of a 128-wide row. -/
def hi (j : Fin 64) : Fin 128 := ⟨64 + j.val, by have := j.isLt; omega⟩

@[simp] theorem lo_val (j : Fin 64) : (lo j).val = j.val := rfl
@[simp] theorem hi_val (j : Fin 64) : (hi j).val = 64 + j.val := rfl

/-- A sum over 128 terms is the sum over the first 64 plus the sum over the last 64. -/
theorem sum_lo_hi (f : Fin 128 → EReal) : ∑ l : Fin 128, f l = (∑ j : Fin 64, f (lo j)) + ∑ j : Fin 64, f (hi j) := by
  have h := Fin.sum_univ_add (M := EReal) (a := 64) (b := 64) (fun l : Fin (64 + 64) => f l)
  refine h.trans ?_
  refine congrArg₂ (· + ·) (Finset.sum_congr rfl fun j _ => congrArg f (Fin.ext ?_))
    (Finset.sum_congr rfl fun j _ => congrArg f (Fin.ext ?_))
  · rfl
  · rfl

/-- The hidden layer at row `p`, unit `k`, over the arrays as the kernel is handed them. -/
def hiddenK {n : Nat} (a0 a1 : T n 64) (a2 a3 : T 64 128) (a4 : T 1 128) (p : Fin n) (k : Fin 128) : EReal :=
  max (((∑ j : Fin 64, a0 (ix2 p j) * a2 (ix2 j k)) + ∑ j : Fin 64, a1 (ix2 p j) * a3 (ix2 j k)) + a4 (ix2 0 k)) 0

/-- The result over the arrays as the kernel is handed them. -/
def Gk {n : Nat} (a0 a1 : T n 64) (a2 a3 : T 64 128) (a4 : T 1 128) (a5 : T 128 128) (a6 : T 1 128) : T n 128 :=
  fun i => (∑ k : Fin 128, hiddenK a0 a1 a2 a3 a4 (i 0) k * a5 (ix2 k (i 1))) + a6 (ix2 0 (i 1))

/-- The first-layer weights of the neighbourhood half, transposed: entry (j, k) is W1(k, j). -/
def w1a (W1 : T 128 128) : T 64 128 := fun i => W1 (ix2 (i 1) (lo (i 0)))
/-- The first-layer weights of the self half, transposed: entry (j, k) is W1(k, 64 + j). -/
def w1b (W1 : T 128 128) : T 64 128 := fun i => W1 (ix2 (i 1) (hi (i 0)))
/-- A square matrix transposed. -/
def tr (W : T 128 128) : T 128 128 := fun i => W (ix2 (i 1) (i 0))
/-- A vector as a one-row matrix. -/
def row (b : R 128) : T 1 128 := fun i => b (ix1 (i 1))

/-- The result over the weight matrices and bias vectors as given. -/
def G {n : Nat} (A X : T n 64) (W1 : T 128 128) (b1 : R 128) (W2 : T 128 128) (b2 : R 128) : T n 128 :=
  Gk A X (w1a W1) (w1b W1) (row b1) (tr W2) (row b2)

theorem Gk_apply {n : Nat} (a0 a1 : T n 64) (a2 a3 : T 64 128) (a4 : T 1 128) (a5 : T 128 128) (a6 : T 1 128)
    (p : Fin n) (q : Fin 128) :
    Gk a0 a1 a2 a3 a4 a5 a6 (ix2 p q)
      = (∑ k : Fin 128, max (((∑ j : Fin 64, a0 (ix2 p j) * a2 (ix2 j k)) + ∑ j : Fin 64, a1 (ix2 p j) * a3 (ix2 j k)) + a4 (ix2 0 k)) 0
          * a5 (ix2 k q)) + a6 (ix2 0 q) := rfl

theorem G_apply {n : Nat} (A X : T n 64) (W1 : T 128 128) (b1 : R 128) (W2 : T 128 128) (b2 : R 128)
    (p : Fin n) (q : Fin 128) :
    G A X W1 b1 W2 b2 (ix2 p q)
      = (∑ k : Fin 128, max (((∑ j : Fin 64, A (ix2 p j) * W1 (ix2 k (lo j))) + ∑ j : Fin 64, X (ix2 p j) * W1 (ix2 k (hi j))) + b1 (ix1 k)) 0
          * W2 (ix2 q k)) + b2 (ix1 q) := rfl

end Cert.Spec

end
-- ==== Proof.Payload.lean ====
/-
  The body's arithmetic on one block of 5000 rows, read entry by entry.

  On a block the body forms A·U + X·U' (two products [5000,64] by [64,128], each accumulated from zero), adds the
  bias row c to every row, takes the maximum with 0, multiplies by V ([128,128], accumulated from zero) and adds the
  bias row d to every row.  A matrix product accumulated from zero is, at entry (p, q), the plain sum over the shared
  axis of l(p,k)·r(k,q); a one-row array broadcast down the rows reads its row; so entry (p, q) of the result is
    ∑ₖ max (∑ⱼ A(p,j)·U(j,k) + ∑ⱼ X(p,j)·U'(j,k) + c(0,k)) 0 · V(k,q) + d(0,q),
  the specification's expression on 5000 rows.
-/
import proofs.«116296_j82162724372842_2_alg».proof.Proof.Gen.KernelIdeal.Skeleton
import proofs.«116296_j82162724372842_2_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.ValueIdx
namespace Cert.KernelValue
open Cert.KernelIdeal Cert.KernelIdeal.Gen

/-- The left operand's index of the [5000,64] by [64,128] product: its row is the output's row. -/
theorem lhs_a_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- Its column is the summation index. -/
theorem lhs_a_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's index: its row is the summation index. -/
theorem rhs_a_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- Its column is the output's column. -/
theorem rhs_a_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A [5000,64] by [64,128] matrix product accumulated into the zero array: entry (p, q) is the sum over the shared
    axis k of l(p,k) * r(k,q). -/
theorem matmul_a_apply (l : FVec Ideal S5000x64 .f32) (r : FVec Ideal S64x128 .f32) (p : Fin 5000) (q : Fin 128) :
    matmul dot_S5000x64_S64x128_S5000x128_1_0_0_1_n_n (some .fp32) l r (constant S5000x128 .f32 0x00000000#32) (ix2 p q)
      = ∑ k : Fin 64, l (ix2 p k) * r (ix2 k q) := by
  refine (Ideal.matmul_constant_zero_apply dot_S5000x64_S64x128_S5000x128_1_0_0_1_n_n (some .fp32) l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact lhs_a_0 _ _
      | ⟨1, _⟩ => exact (lhs_a_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (rhs_a_0 _ _).trans hk
      | ⟨1, _⟩ => exact rhs_a_1 _ _)
  exact congrArg₂ (· * ·) (congrArg l el) (congrArg r er)

/-- The left operand's index of the [5000,128] by [128,128] product: its row is the output's row. -/
theorem lhs_b_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the summation index. -/
theorem lhs_b_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index: its row is the summation index. -/
theorem rhs_b_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem rhs_b_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] matrix product accumulated into the zero array: entry (p, q) is the sum over the shared
    axis k of l(p,k) * r(k,q). -/
theorem matmul_b_apply (l : FVec Ideal S5000x128 .f32) (r : FVec Ideal S128x128 .f32) (p : Fin 5000) (q : Fin 128) :
    matmul dot_S5000x128_S128x128_S5000x128_1_0_0_1_n_n (some .fp32) l r (constant S5000x128 .f32 0x00000000#32) (ix2 p q)
      = ∑ k : Fin 128, l (ix2 p k) * r (ix2 k q) := by
  refine (Ideal.matmul_constant_zero_apply dot_S5000x128_S128x128_S5000x128_1_0_0_1_n_n (some .fp32) l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_b_0 _ _
      | ⟨1, _⟩ => exact (lhs_b_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_b_0 _ _).trans hk
      | ⟨1, _⟩ => exact rhs_b_1 _ _)
  exact congrArg₂ (· * ·) (congrArg l el) (congrArg r er)

/-- A one-row array broadcast down 5000 rows: entry (p, k) is the row's entry k. -/
theorem broadcast_row_apply (v : FVec Ideal S1x128 .f32) (p : Fin 5000) (k : Fin 128) :
    broadcastTo S5000x128 v broadcasts_S1x128_S5000x128 (ix2 p k) = v (ix2 0 k) := by
  refine broadcastTo_apply v broadcasts_S1x128_S5000x128 (ix2 p k) (ix2 0 k) (fun a => ?_)
  match a with
  | ⟨0, _⟩ => rfl
  | ⟨1, _⟩ => rfl

/-- The block's arithmetic, read entry by entry, is the two-layer expression of the specification on 5000 rows. -/
theorem pay_eq (x0 x1 : Vec Ideal S5000x64 .f32) (x2 x3 : Vec Ideal S64x128 .f32) (x4 : Vec Ideal S1x128 .f32)
    (x5 : Vec Ideal S128x128 .f32) (x6 : Vec Ideal S1x128 .f32) :
    k0_pay1 (F := Ideal) x0 x1 x2 x3 x4 x5 x6 = Cert.Spec.Gk (n := 5000) x0 x1 x2 x3 x4 x5 x6 := by
  funext i
  obtain ⟨p, q, rfl⟩ : ∃ (p : Fin 5000) (q : Fin 128), i = ix2 p q := ⟨i 0, i 1, eq_ix2 i⟩
  rw [Cert.Spec.Gk_apply]
  unfold k0_pay1
  -- a cast of a shape to itself changes nothing
  rw [shapeCast_self x0 shapeCasts_S5000x64_S5000x64, shapeCast_self x2 shapeCasts_S64x128_S64x128,
    shapeCast_self x3 shapeCasts_S64x128_S64x128, shapeCast_self x4 shapeCasts_S1x128_S1x128,
    shapeCast_self x5 shapeCasts_S128x128_S128x128, shapeCast_self x6 shapeCasts_S1x128_S1x128]
  -- the outer sum: second-layer product plus the second bias row
  refine (addf_apply _ _ _).trans ?_
  refine congrArg₂ (· + ·) ?_ (broadcast_row_apply x6 p q)
  refine (matmul_b_apply _ _ p q).trans ?_
  refine Finset.sum_congr rfl fun k _ => ?_
  refine congrArg (· * x5 (ix2 k q)) ?_
  -- the hidden unit (p, k): the maximum of the first layer's value and zero
  refine (maximumf_apply _ _ _).trans ?_
  refine congrArg₂ max ?_ Ideal.ofBits_zero_f32
  refine (addf_apply _ _ _).trans ?_
  refine congrArg₂ (· + ·) ?_ (broadcast_row_apply x4 p k)
  refine (addf_apply _ _ _).trans ?_
  exact congrArg₂ (· + ·) (matmul_a_apply x0 x2 p k) (matmul_a_apply x1 x3 p k)

end Cert.KernelValue
end
-- ==== Proof.Blocks.lean ====
/-
  From blocks to the array.  The grid has 20 points; point `t` is handed rows [5000·t, 5000·t + 5000) of the two
  [100000, 64] arrays, the whole of the five weight and bias arrays, and writes back rows [5000·t, 5000·t + 5000) of the
  [100000, 128] result.  The body's result on a block is the two-layer expression `Cert.Spec.Gk` of the blocks it is
  handed (`hpay`), and that expression at row `r` reads only row `r` of the two row arrays: so what point `t` writes
  back is block `t` of `Gk` of the WHOLE arrays, and since every row lies in exactly one block (row `r` in block
  `r / 5000`), the result array ends holding `Gk` of the whole arrays.
-/
import proofs.«116296_j82162724372842_2_alg».proof.Proof.Gen.KernelIdeal.Value
import proofs.«116296_j82162724372842_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.KernelIdeal.Value

variable (m : (ℓ : Loc nD τ sig) → Buf (Elt Ideal) ℓ)

theorem hz : (![0, 0] : Fin 2 → Nat) = fun _ => 0 := funext fun a => by fin_cases a <;> rfl

/-- The block index maps over the 20 grid points: the two row arrays and the result move together, block `t` at point
    `t`; the weight and bias arrays stay at their one block. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of block `t` is row `5000·t + r` of the array. -/
def rowOf (t : Fin cfg0.N) (r : Fin 5000) : Fin 100000 :=
  ⟨t.val * 5000 + r.val, by have ht : t.val < cfg0.N := t.isLt; have hr : r.val < 5000 := r.isLt; have hN : cfg0.N = 20 := N_0; omega⟩

/-- The first row array's block at point `t`, entry (r, j), is the array's entry (5000·t + r, j). -/
theorem iblk0_apply (c : Dev nD) (t : Fin cfg0.N) (r : Fin 5000) (j : Fin 64) :
    iblk m c 0 t (ix2 r j) = V m c main_v23 (ix2 (rowOf t r) j) := by
  obtain ⟨-, -, e0, e1, -⟩ := idx_facts t
  show V m c main_v23 (((cfg0.win 0).blk t).view.emb (ix2 r j)) = V m c main_v23 (ix2 (rowOf t r) j)
  refine congrArg (V m c main_v23) (funext fun a => Fin.ext ?_)
  match a with
  | ⟨0, _⟩ => show win0_0.index t (0 : Fin 2) * 5000 + 1 * r.val = t.val * 5000 + r.val; omega
  | ⟨1, _⟩ => show win0_0.index t (1 : Fin 2) * 64 + 1 * j.val = j.val; omega

/-- The second row array's block at point `t`, entry (r, j), is the array's entry (5000·t + r, j). -/
theorem iblk1_apply (c : Dev nD) (t : Fin cfg0.N) (r : Fin 5000) (j : Fin 64) :
    iblk m c 1 t (ix2 r j) = V m c main_arg0 (ix2 (rowOf t r) j) := by
  obtain ⟨-, -, -, -, e0, e1, -⟩ := idx_facts t
  show V m c main_arg0 (((cfg0.win 1).blk t).view.emb (ix2 r j)) = V m c main_arg0 (ix2 (rowOf t r) j)
  refine congrArg (V m c main_arg0) (funext fun a => Fin.ext ?_)
  match a with
  | ⟨0, _⟩ => show win0_1.index t (0 : Fin 2) * 5000 + 1 * r.val = t.val * 5000 + r.val; omega
  | ⟨1, _⟩ => show win0_1.index t (1 : Fin 2) * 64 + 1 * j.val = j.val; omega

/-- A weight or bias array's one block is the array. -/
theorem iblk2_eq (c : Dev nD) (t : Fin cfg0.N) : (iblk m c 2 t : S64x128.Idx → EReal) = V m c main_v26 := by
  obtain ⟨-, -, -, -, -, -, e0, e1, -⟩ := idx_facts t
  funext y
  show V m c main_v26 (((cfg0.win 2).blk t).view.emb y) = V m c main_v26 y
  refine congrArg (V m c main_v26) (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem iblk3_eq (c : Dev nD) (t : Fin cfg0.N) : (iblk m c 3 t : S64x128.Idx → EReal) = V m c main_v27 := by
  obtain ⟨-, -, -, -, -, -, -, -, e0, e1, -⟩ := idx_facts t
  funext y
  show V m c main_v27 (((cfg0.win 3).blk t).view.emb y) = V m c main_v27 y
  refine congrArg (V m c main_v27) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

theorem iblk4_eq (c : Dev nD) (t : Fin cfg0.N) : (iblk m c 4 t : S1x128.Idx → EReal) = V m c main_v29 := by
  obtain ⟨-, -, -, -, -, -, -, -, -, -, e0, e1, -⟩ := idx_facts t
  funext y
  show V m c main_v29 (((cfg0.win 4).blk t).view.emb y) = V m c main_v29 y
  refine congrArg (V m c main_v29) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem iblk5_eq (c : Dev nD) (t : Fin cfg0.N) : (iblk m c 5 t : S128x128.Idx → EReal) = V m c main_v28 := by
  obtain ⟨-, -, -, -, -, -, -, -, -, -, -, -, e0, e1, -⟩ := idx_facts t
  funext y
  show V m c main_v28 (((cfg0.win 5).blk t).view.emb y) = V m c main_v28 y
  refine congrArg (V m c main_v28) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem iblk6_eq (c : Dev nD) (t : Fin cfg0.N) : (iblk m c 6 t : S1x128.Idx → EReal) = V m c main_v30 := by
  obtain ⟨-, -, -, -, -, -, -, -, -, -, -, -, -, -, e0, e1⟩ := idx_facts t
  funext y
  show V m c main_v30 (((cfg0.win 6).blk t).view.emb y) = V m c main_v30 y
  refine congrArg (V m c main_v30) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The two-layer expression on a block of rows is the expression on the whole arrays at the block's rows: it reads,
    at row `r`, row `r` of the two row arrays only. -/
theorem Gk_rows (a0 a1 : Cert.Spec.T 100000 64) (b0 b1 : Cert.Spec.T 5000 64) (a2 a3 : Cert.Spec.T 64 128)
    (a4 : Cert.Spec.T 1 128) (a5 : Cert.Spec.T 128 128) (a6 : Cert.Spec.T 1 128) (f : Fin 5000 → Fin 100000)
    (h0 : ∀ r j, b0 (ix2 r j) = a0 (ix2 (f r) j)) (h1 : ∀ r j, b1 (ix2 r j) = a1 (ix2 (f r) j)) (r : Fin 5000) (q : Fin 128) :
    Cert.Spec.Gk b0 b1 a2 a3 a4 a5 a6 (ix2 r q) = Cert.Spec.Gk a0 a1 a2 a3 a4 a5 a6 (ix2 (f r) q) := by
  rw [Cert.Spec.Gk_apply, Cert.Spec.Gk_apply]
  simp only [h0, h1]

/-- WHAT POINT `t` WRITES BACK is block `t` of the two-layer expression of the whole arrays as the region finds them. -/
theorem flushed7_eq
    (hpay : ∀ (x0 x1 : Vec Ideal S5000x64 .f32) (x2 x3 : Vec Ideal S64x128 .f32) (x4 : Vec Ideal S1x128 .f32)
      (x5 : Vec Ideal S128x128 .f32) (x6 : Vec Ideal S1x128 .f32),
      k0_pay1 (F := Ideal) x0 x1 x2 x3 x4 x5 x6 = Cert.Spec.Gk (n := 5000) x0 x1 x2 x3 x4 x5 x6)
    (c : Dev nD) (t : Fin cfg0.N) :
    (dats m 0 c).flushed 7 t = ((cfg0.win 7).blk t).view.read (Elt Ideal)
      (Cert.Spec.Gk (n := 100000) (V m c main_v23) (V m c main_arg0) (V m c main_v26) (V m c main_v27) (V m c main_v29) (V m c main_v28) (V m c main_v30)) := by
  show (cfg0.win 7).cut (grid0.coords t) ((dats m 0 c).after 7 t) = _
  rw [after0_7]
  unfold out0_7
  rw [View.canon_unit_zero hz]
  simp only [View.ld_unit_zero (S := S5000x64) hz, View.ld_unit_zero (S := S64x128) hz, View.ld_unit_zero (S := S1x128) hz,
    View.ld_unit_zero (S := S128x128) hz]
  rw [hpay, iblk2_eq, iblk3_eq, iblk4_eq, iblk5_eq, iblk6_eq]
  obtain ⟨e0, e1, -⟩ := idx_facts t
  funext y
  obtain ⟨r, q, rfl⟩ : ∃ (r : Fin 5000) (q : Fin 128), y = ix2 r q := ⟨y 0, y 1, eq_ix2 y⟩
  have hemb : ((cfg0.win 7).blk t).view.emb (ix2 r q) = (ix2 (rowOf t r) q : S100000x128.Idx) := by
    funext a; apply Fin.ext
    match a with
    | ⟨0, _⟩ => show win0_7.index t (0 : Fin 2) * 5000 + 1 * r.val = t.val * 5000 + r.val; omega
    | ⟨1, _⟩ => show win0_7.index t (1 : Fin 2) * 128 + 1 * q.val = q.val; omega
  show Cert.Spec.Gk (n := 5000) (iblk m c 0 t) (iblk m c 1 t) (V m c main_v26) (V m c main_v27) (V m c main_v29) (V m c main_v28) (V m c main_v30) (ix2 r q)
      = Cert.Spec.Gk (n := 100000) (V m c main_v23) (V m c main_arg0) (V m c main_v26) (V m c main_v27) (V m c main_v29) (V m c main_v28) (V m c main_v30) (((cfg0.win 7).blk t).view.emb (ix2 r q))
  rw [hemb]
  exact Gk_rows (V m c main_v23) (V m c main_arg0) (iblk m c 0 t) (iblk m c 1 t) _ _ _ _ _ (rowOf t) (iblk0_apply m c t) (iblk1_apply m c t) r q

/-- An index of the result array is in point `t`'s block iff each coordinate is in the block's range on its axis. -/
theorem mem_blk7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v31).slice (win0_7.rect t)).set ↔ _
  rw [View.set_slice_whole, Rect.mem_set_unit]
  exact Iff.rfl

/-- Every index of the result array lies in the block of the point its row falls in. -/
theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, -⟩ := idx_facts t
  have ht : t.val = (i 0).val / 5000 := rfl
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE RESULT ARRAY after the run is the two-layer expression of the arrays as the region finds them. -/
theorem final7
    (hpay : ∀ (x0 x1 : Vec Ideal S5000x64 .f32) (x2 x3 : Vec Ideal S64x128 .f32) (x4 : Vec Ideal S1x128 .f32)
      (x5 : Vec Ideal S128x128 .f32) (x6 : Vec Ideal S1x128 .f32),
      k0_pay1 (F := Ideal) x0 x1 x2 x3 x4 x5 x6 = Cert.Spec.Gk (n := 5000) x0 x1 x2 x3 x4 x5 x6)
    (c : Dev nD) :
    ((dats m 0 c).arrAt 7 cfg0.N : S100000x128.Idx → EReal)
      = Cert.Spec.Gk (n := 100000) (V m c main_v23) (V m c main_arg0) (V m c main_v26) (V m c main_v27) (V m c main_v29) (V m c main_v28) (V m c main_v30) :=
  (dats m 0 c).arrAt_eq_of_cover 7 _ (fun t _ => flushed7_eq m hpay c t) cover7

end Cert.KernelValue

end
-- ==== Proof.HostLayout.lean ====
/-
  Five arrays prepared before the region, read as the specification's re-laid arrays.

  The weight matrix W1 : [128, 128] is cut into its column halves [0:64] and [64:128], each half transposed to
  [64, 128]; the weight matrix W2 : [128, 128] is transposed; the bias vectors b1, b2 : [128] are reshaped to one-row
  matrices [1, 128].  Each is a pure re-indexing of its argument:

    transpose (slice W1 [0:128, 0:64])   (j, k) = W1 (k, j)
    transpose (slice W1 [0:128, 64:128]) (j, k) = W1 (k, 64 + j)
    transpose W2                         (p, q) = W2 (q, p)
    reshape b                            (0, q) = b (q)

  First the four re-indexings are proved over a variable array; then each prepared array is shown to be the
  corresponding re-indexing of the argument it was computed from.
-/
import proofs.«116296_j82162724372842_2_alg».proof.Proof.Gen.KernelIdeal.Frame
import proofs.«116296_j82162724372842_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelValue

open Cert.KernelIdeal Cert.KernelIdeal.Gen

/-! ## The re-indexings over a variable array -/

/-- The left column half of a [128, 128] array, transposed: entry (j, k) is the array's entry (k, j). -/
theorem transpose_slice_lo (x : S128x128.Idx → EReal) :
    transpose S64x128 [1, 0] (extractStridedSlice S128x64 ![0, 0] x Gen.slices_S128x128_S128x64_0_0)
        Gen.transposes_S128x64_S64x128_1_0
      = Cert.Spec.w1a x := by
  funext i
  obtain ⟨p, q, rfl⟩ : ∃ (p : Fin 64) (q : Fin 128), i = ix2 p q := ⟨i 0, i 1, eq_ix2 i⟩
  -- the transpose reads the slice at (q, p)
  refine (transpose_apply [1, 0] _ Gen.transposes_S128x64_S64x128_1_0 (ix2 p q) (ix2 q p) (fun b => match b with
    | ⟨0, _⟩ => rfl
    | ⟨1, _⟩ => rfl)).trans ?_
  -- the slice at (q, p) reads the array at (q, 0 + p)
  exact extractStridedSlice_apply ![0, 0] x Gen.slices_S128x128_S128x64_0_0 (ix2 q p) (ix2 q (Cert.Spec.lo p))
    (fun a => match a with
      | ⟨0, _⟩ => by show q.val = 0 + q.val; omega
      | ⟨1, _⟩ => by show p.val = 0 + p.val; omega)

/-- The right column half of a [128, 128] array, transposed: entry (j, k) is the array's entry (k, 64 + j). -/
theorem transpose_slice_hi (x : S128x128.Idx → EReal) :
    transpose S64x128 [1, 0] (extractStridedSlice S128x64 ![0, 64] x Gen.slices_S128x128_S128x64_0_64)
        Gen.transposes_S128x64_S64x128_1_0
      = Cert.Spec.w1b x := by
  funext i
  obtain ⟨p, q, rfl⟩ : ∃ (p : Fin 64) (q : Fin 128), i = ix2 p q := ⟨i 0, i 1, eq_ix2 i⟩
  refine (transpose_apply [1, 0] _ Gen.transposes_S128x64_S64x128_1_0 (ix2 p q) (ix2 q p) (fun b => match b with
    | ⟨0, _⟩ => rfl
    | ⟨1, _⟩ => rfl)).trans ?_
  -- the slice at (q, p) reads the array at (q, 64 + p)
  exact extractStridedSlice_apply ![0, 64] x Gen.slices_S128x128_S128x64_0_64 (ix2 q p) (ix2 q (Cert.Spec.hi p))
    (fun a => match a with
      | ⟨0, _⟩ => by show q.val = 0 + q.val; omega
      | ⟨1, _⟩ => by show 64 + p.val = 64 + p.val; rfl)

/-- A [128, 128] array transposed: entry (p, q) is the array's entry (q, p). -/
theorem transpose_sq (x : S128x128.Idx → EReal) :
    transpose S128x128 [1, 0] x Gen.transposes_S128x128_S128x128_1_0 = Cert.Spec.tr x := by
  funext i
  obtain ⟨p, q, rfl⟩ : ∃ (p : Fin 128) (q : Fin 128), i = ix2 p q := ⟨i 0, i 1, eq_ix2 i⟩
  exact transpose_apply [1, 0] x Gen.transposes_S128x128_S128x128_1_0 (ix2 p q) (ix2 q p) (fun b => match b with
    | ⟨0, _⟩ => rfl
    | ⟨1, _⟩ => rfl)

/-- A [128] array reshaped to [1, 128]: entry (u, q) is the array's entry q. -/
theorem reshape_row (x : S128.Idx → EReal) :
    shapeCast S1x128 x Gen.shapeCasts_S128_S1x128 = Cert.Spec.row x := by
  funext i
  obtain ⟨u, q, rfl⟩ : ∃ (u : Fin 1) (q : Fin 128), i = ix2 u q := ⟨i 0, i 1, eq_ix2 i⟩
  exact shapeCast_a_1a_apply x Gen.shapeCasts_S128_S1x128 u q

/-! ## The prepared arrays -/

variable (m : (ℓ : Loc nD τ sig) → Buf (Elt Ideal) ℓ)

/-- The left half of W1, transposed, as prepared: the specification's first-layer weights of the neighbourhood half. -/
theorem V_v26 (c : Dev nD) :
    (V m c main_v26 : S64x128.Idx → EReal) = Cert.Spec.w1a (m ((c : Thread nD τ).loc main_arg2)) := by
  have e : (V m c main_v26 : S64x128.Idx → EReal)
      = transpose S64x128 [1, 0]
          (extractStridedSlice S128x64 ![0, 0] (m ((c : Thread nD τ).loc main_arg2) : S128x128.Idx → EReal)
            Gen.slices_S128x128_S128x64_0_0)
          Gen.transposes_S128x64_S64x128_1_0 := by
    dsimp only [Gen.V, Gen.hostOps0]; after_results
  exact e.trans (transpose_slice_lo _)

/-- The right half of W1, transposed, as prepared: the specification's first-layer weights of the self half. -/
theorem V_v27 (c : Dev nD) :
    (V m c main_v27 : S64x128.Idx → EReal) = Cert.Spec.w1b (m ((c : Thread nD τ).loc main_arg2)) := by
  have e : (V m c main_v27 : S64x128.Idx → EReal)
      = transpose S64x128 [1, 0]
          (extractStridedSlice S128x64 ![0, 64] (m ((c : Thread nD τ).loc main_arg2) : S128x128.Idx → EReal)
            Gen.slices_S128x128_S128x64_0_64)
          Gen.transposes_S128x64_S64x128_1_0 := by
    dsimp only [Gen.V, Gen.hostOps0]; after_results
  exact e.trans (transpose_slice_hi _)

/-- W2 transposed, as prepared: the specification's second-layer weights. -/
theorem V_v28 (c : Dev nD) :
    (V m c main_v28 : S128x128.Idx → EReal) = Cert.Spec.tr (m ((c : Thread nD τ).loc main_arg4)) := by
  have e : (V m c main_v28 : S128x128.Idx → EReal)
      = transpose S128x128 [1, 0] (m ((c : Thread nD τ).loc main_arg4) : S128x128.Idx → EReal)
          Gen.transposes_S128x128_S128x128_1_0 := by
    dsimp only [Gen.V, Gen.hostOps0]; after_results
  exact e.trans (transpose_sq _)

/-- b1 as a one-row matrix, as prepared: the specification's first-layer bias row. -/
theorem V_v29 (c : Dev nD) :
    (V m c main_v29 : S1x128.Idx → EReal) = Cert.Spec.row (m ((c : Thread nD τ).loc main_arg3)) := by
  have e : (V m c main_v29 : S1x128.Idx → EReal)
      = shapeCast S1x128 (m ((c : Thread nD τ).loc main_arg3) : S128.Idx → EReal) Gen.shapeCasts_S128_S1x128 := by
    dsimp only [Gen.V, Gen.hostOps0]; after_results; rfl
  exact e.trans (reshape_row _)

/-- b2 as a one-row matrix, as prepared: the specification's second-layer bias row. -/
theorem V_v30 (c : Dev nD) :
    (V m c main_v30 : S1x128.Idx → EReal) = Cert.Spec.row (m ((c : Thread nD τ).loc main_arg5)) := by
  have e : (V m c main_v30 : S1x128.Idx → EReal)
      = shapeCast S1x128 (m ((c : Thread nD τ).loc main_arg5) : S128.Idx → EReal) Gen.shapeCasts_S128_S1x128 := by
    dsimp only [Gen.V, Gen.hostOps0]; after_results; rfl
  exact e.trans (reshape_row _)

end Cert.KernelValue

end
-- ==== Proof.LibScatterCount.lean ====
/-
  Counting by scatter-add: integers against floats.

  A scatter-add of ones into an array of zeros counts, at each element, the update positions whose result index is that
  element.  Done in wrapping 32-bit integers and then read as a signed integer and converted to a float, the count is
  exact as long as there are fewer than 2^31 update positions; done in floats on the extended reals it is the exact
  sum of that many ones.  So the two agree (`sitofp_scatter_ones`).  The steps: the integer scatter is a left fold
  over the update positions in row-major order, which at one element adds one per matching position
  (`foldl_scatter_ones_apply`); counting along the row-major numbering is counting over the index set
  (`countP_finRange_rowMajor`); a natural number below 2^31 survives the 32-bit signed reading
  (`toInt_ofNat_of_lt`); and a sum of ones over a finite set is its size (`sum_one_ereal`).
  Nothing here depends on particular shapes or dimension numbers.
-/
import Idealize.ShloMosaic.PureOps.Ideal
import Idealize.ShloMosaic.PureOps.ShapeOps
import Idealize.ShloMosaic.PureOps.Contract
import Idealize.ShloMosaic.PureOps.Vector
noncomputable section
namespace Cert.Lib
open Idealize.ShloMosaic

/-- Adding one and then the 32-bit numeral of `c` is adding the numeral of `c + 1`. -/
theorem add_one_add_ofNat (x : BitVec 32) (c : Nat) :
    x + 1#32 + BitVec.ofNat 32 c = x + BitVec.ofNat 32 (c + 1) := by
  rw [BitVec.add_assoc, Nat.add_comm c 1, BitVec.ofNat_add]

/-- The left fold of the scatter step whose body is wrapping addition and whose every update is one,
    over any list of update positions: at each element, the start value plus the (wrapping) number of
    listed positions whose result index is that element. -/
theorem foldl_scatter_ones_apply {s si u : Shape} {w : Nat} (d : ScatterDims s si u) (idx : IVec si w)
    (L : List (Fin u.numel)) (x : s.Idx → BitVec 32) (i : s.Idx) :
    (L.foldl (fun r n =>
        match d.resultIdx? (u.rowMajor.symm n) idx with
        | some i0 => fun i' => if i' = i0 then IntOp.addi (r i0) ((fun _ => 1#32 : u.Idx → BitVec 32) (u.rowMajor.symm n)) else r i'
        | none => r) x) i
      = x i + BitVec.ofNat 32 (L.countP fun n => decide (d.resultIdx? (u.rowMajor.symm n) idx = some i)) := by
  induction L generalizing x with
  | nil => simp
  | cons n L ih =>
    rw [List.foldl_cons, ih, List.countP_cons]
    cases h : d.resultIdx? (u.rowMajor.symm n) idx with
    | none => simp
    | some i0 =>
      by_cases hi : i = i0
      · subst hi
        simp only [if_true, decide_true, IntOp.addi]
        exact add_one_add_ofNat _ _
      · have hne : ¬ (some i0 = some i) := fun e => hi (Option.some.inj e).symm
        simp [hi, hne]

/-- Counting a decidable predicate along the list of all positions below `N` is the size of the
    filtered universe. -/
theorem countP_finRange_eq_card (N : Nat) (q : Fin N → Prop) [DecidablePred q] :
    (List.finRange N).countP (fun n => decide (q n)) = (Finset.univ.filter q).card := by
  rw [Fin.univ_def]
  show _ = (Multiset.filter q (List.finRange N : Multiset (Fin N))).card
  rw [Multiset.filter_coe, Multiset.coe_card, List.countP_eq_length_filter]

/-- Counting a decidable predicate on a shape's indices along the row-major numbering of all its
    positions is the size of the filtered universe of indices. -/
theorem countP_finRange_rowMajor {u : Shape} (p : u.Idx → Prop) [DecidablePred p] :
    (List.finRange u.numel).countP (fun n => decide (p (u.rowMajor.symm n))) = (Finset.univ.filter p).card := by
  rw [countP_finRange_eq_card u.numel (fun n => p (u.rowMajor.symm n))]
  refine Finset.card_equiv u.rowMajor.symm fun n => ?_
  simp

/-- A natural number below `2 ^ 31`, as a 32-bit numeral read signed, is itself. -/
theorem toInt_ofNat_of_lt {c : Nat} (hc : c < 2 ^ 31) : (BitVec.ofNat 32 c).toInt = (c : Int) := by
  rw [BitVec.toInt_eq_toNat_cond, BitVec.toNat_ofNat, Nat.mod_eq_of_lt (by omega)]
  rw [if_pos (by omega)]

/-- On the extended reals a sum of ones over a finite set is its size, as a coerced real. -/
theorem sum_one_ereal {ι : Type} (S : Finset ι) : (∑ _j ∈ S, (1 : EReal)) = ((S.card : ℝ) : EReal) := by
  rw [Finset.sum_const, ← EReal.coe_one, ← EReal.coe_nsmul, nsmul_eq_mul, mul_one]

/-- Counting by a wrapping 32-bit scatter-add of ones into zeros, read as a signed integer and
    converted to a float, is on the extended reals the float scatter-add of ones into zeros,
    provided the number of updates is below `2 ^ 31`: both are, at each element, the number of
    update positions whose result index is that element. -/
theorem sitofp_scatter_ones {s si u : Shape} {w : Nat} (d : ScatterDims s si u) (idx : IVec si w) (hu : u.numel < 2 ^ 31)
    (zi : IVec s 32) (hzi : ∀ i, zi i = 0#32) (oi : IVec u 32) (hoi : ∀ j, oi j = 1#32)
    (zf : FVec Ideal s .f32) (hzf : ∀ i, zf i = 0) (of : FVec Ideal u .f32) (hof : ∀ j, of j = 1) :
    sitofp (F := Ideal) .f32 (Host.scatter d IntOp.addi zi idx oi) = Host.scatterAdd (F := Ideal) d zf idx of := by
  obtain rfl : zi = fun _ => 0#32 := funext hzi
  obtain rfl : oi = fun _ => 1#32 := funext hoi
  obtain rfl : zf = fun _ => 0 := funext hzf
  obtain rfl : of = fun _ => 1 := funext hof
  funext i
  show ((((Host.scatter d IntOp.addi (fun _ => 0#32) idx (fun _ => 1#32)) i).toInt : ℝ) : EReal)
    = (0 : EReal) + ∑ j ∈ Finset.univ.filter (fun j => d.resultIdx? j idx = some i), (1 : EReal)
  have hfold : Host.scatter d IntOp.addi (fun _ => 0#32) idx (fun _ => 1#32) i
      = 0#32 + BitVec.ofNat 32
          ((List.finRange u.numel).countP fun n => decide (d.resultIdx? (u.rowMajor.symm n) idx = some i)) :=
    foldl_scatter_ones_apply d idx (List.finRange u.numel) (fun _ => 0#32) i
  have hcount := countP_finRange_rowMajor (u := u) (fun j => d.resultIdx? j idx = some i)
  have hle : ((List.finRange u.numel).countP fun n => decide (d.resultIdx? (u.rowMajor.symm n) idx = some i)) ≤ u.numel :=
    (List.countP_le_length).trans (List.length_finRange).le
  rw [hfold, BitVec.zero_add, toInt_ofNat_of_lt (lt_of_le_of_lt hle hu), hcount, sum_one_ereal, zero_add,
    Int.cast_natCast]

end Cert.Lib
-- ==== Proof.AggMean.lean ====
/-
  The aggregated-mean array the kernel is handed is the reference's.

  Both programs gather the sender rows, scatter-add them at the receiver rows, and divide each row by
  max(count, 1), where count(r) is the number of edges whose receiver is r.  The sum is computed by the same
  operations in both.  The count is not: the kernel adds ones in 32-bit integers and converts the total to a
  float, the reference adds float ones.  On the extended reals the second is the exact number of such edges; the
  first is that number too, because there are 1,200,000 edges, fewer than 2^31, so the wrapping integer sum never
  wraps and its signed reading is the count itself.  The kernel takes max(count, 1), the reference max(1, count).
-/
import proofs.«116296_j82162724372842_2_alg».proof.Proof.Gen.KernelIdeal.Frame
import proofs.«116296_j82162724372842_2_alg».proof.Proof.Gen.ReferenceIdeal.Read
import proofs.«116296_j82162724372842_2_alg».proof.Proof.LibScatterCount
import Idealize.ShloMosaic.Lib.StableHlo.Run
import Idealize.ShloMosaic.PureOps.Ideal.Laws
import Idealize.ShloMosaic.Lib.ValueIdx

noncomputable section

open Idealize.ShloMosaic Idealize.ShloMosaic.TcCoe Idealize.SL.Sem

namespace Cert.KernelValue

/-- The f32 word 0x3F800000 is the real number one. -/
theorem ofBits_one_f32 : Ideal.ofBits .f32 0x3F800000#32 = 1 := by
  simp [Ideal.ofBits, Ideal.ieee]
  first
    | (rw [← EReal.coe_mul, ← EReal.coe_one]; congr 1; norm_num)
    | (norm_cast; norm_num)
    | (exact_mod_cast (by norm_num : ((8388608:ℝ)) * ((2:ℝ) ^ 23)⁻¹ = 1))

-- the scatters and the gather are never opened in this module: each is matched operand by operand (opening one would
-- enumerate its 1,200,000 update positions)
attribute [local irreducible] Host.scatter Host.scatterAdd Host.gather

section Reference

open Cert.ReferenceIdeal Cert.ReferenceIdeal.Read

/-- The edge count at each receiver: the integer count (ones added into zeros, wrapping) converted to a float is the
    float count. -/
theorem count_eq (x1 : IVec S2x1200000 32) (zi : IVec S100000 32) (hzi : ∀ i, zi i = 0#32)
    (oi : IVec S1200000 32) (hoi : ∀ j, oi j = 1#32) :
    sitofp (F := Ideal) .f32
        (Host.scatter scatter_S100000_S1200000x1_S1200000_n_0_0_1 IntOp.addi zi (val_main_v16 (F := Ideal) x1) oi)
      = val_main_v17 (F := Ideal) x1 :=
  Cert.Lib.sitofp_scatter_ones _ _ (by decide) zi hzi oi hoi
    (val_main_v15 (F := Ideal)) (fun _ => Ideal.ofBits_zero_f32)
    (val_main_v14 (F := Ideal)) (fun _ => ofBits_one_f32)

/-- The clamped count: max(count, 1) with the integer count is the reference's max(1, count) with the float count. -/
theorem clamp_eq (x1 : IVec S2x1200000 32) (zi : IVec S100000 32) (hzi : ∀ i, zi i = 0#32)
    (oi : IVec S1200000 32) (hoi : ∀ j, oi j = 1#32) (one : FVec Ideal S100000 .f32) (hone : ∀ i, one i = 1) :
    maximumf (sitofp (F := Ideal) .f32
        (Host.scatter scatter_S100000_S1200000x1_S1200000_n_0_0_1 IntOp.addi zi (val_main_v16 (F := Ideal) x1) oi)) one
      = val_main_v18 (F := Ideal) x1 := by
  rw [count_eq x1 zi hzi oi hoi]
  unfold val_main_v18
  funext i
  rw [ValueIdx.maximumf_apply, ValueIdx.maximumf_apply, hone i, val_main_call0_v1_apply, val_main_call0_v0_apply,
    val_main_cst_3_apply, Ideal.ofBits_def, ofBits_one_f32]
  exact max_comm _ _

end Reference

open Cert.KernelIdeal Cert.KernelIdeal.Gen

variable (m : (ℓ : Loc nD τ sig) → Buf (Elt Ideal) ℓ)

set_option maxHeartbeats 1000000 in
/-- The first row array the region finds — the scatter-added sender rows divided by the clamped integer count — is
    the reference's aggregated mean of the same two arguments. -/
theorem V_v23 (c : Dev nD) : (V m c main_v23 : S100000x64.Idx → EReal)
    = Cert.ReferenceIdeal.Read.val_main_v21 (F := Ideal) (m ((c : Thread nD τ).loc main_arg0)) (m ((c : Thread nD τ).loc main_arg1)) := by
  show StableHlo.after hostOps0 (fun b => m (c, b)) (Proc.devRef .tc main_v23) = _
  after_results
  unfold Cert.ReferenceIdeal.Read.val_main_v21
  refine congrArg₂ Host.divf ?_ ?_
  · -- the sum: the same operations on both sides
    unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
    rfl
  · -- the divisor: the clamped count broadcast along each row
    unfold Cert.ReferenceIdeal.Read.val_main_v20 Cert.ReferenceIdeal.Read.val_main_v19
    refine congrArg (broadcastInDim _ _ _) (congrArg (broadcastInDim _ _ _) ?_)
    exact clamp_eq (m ((c : Thread nD τ).loc main_arg1))
      (broadcastInDim S100000 ![] Facts₀.bcast_S_S100000 (constantI S_ 32 0#32)) (fun _ => rfl)
      (broadcastInDim S1200000 ![] Facts₀.bcast_S_S1200000 (constantI S_ 32 1#32)) (fun _ => rfl)
      (broadcastInDim S100000 ![] Facts₀.bcast_S_S100000 (constant S_ .f32 0x3F800000#32)) (fun _ => ofBits_one_f32)

end Cert.KernelValue

end
-- ==== Proof.RefValue.lean ====
/-
  The reference program's result, read index by index, is the specification `G` of the two-layer perceptron.

  The reference joins the neighbourhood means `A` and the node features `X` side by side into one [n, 128] array `C`
  (C(p, l) = A(p, l) for l < 64 and C(p, 64 + j) = X(p, j)), multiplies by W1 transposed, adds the bias, clamps at 0,
  multiplies by W2 transposed and adds the second bias.  Read at (p, q):
    out(p, q) = ∑ₖ max (∑ₗ C(p, l)·W1(k, l) + b1(k)) 0 · W2(q, k) + b2(q).
  The only step that is not a reading of a layout operation is the split of the inner sum over l < 128 into its two
  halves, where C is A on the first and X on the second.
-/
import proofs.«116296_j82162724372842_2_alg».proof.Proof.Gen.ReferenceIdeal.Read
import proofs.«116296_j82162724372842_2_alg».proof.Proof.Spec
noncomputable section
open Idealize.ShloMosaic Idealize.ShloMosaic.TcCoe Idealize.SL.Sem Idealize.ShloMosaic.ValueIdx
namespace Cert.RefValue
open Cert.ReferenceIdeal Cert.ReferenceIdeal.Read

/-- The joined array at a column of the first half is the array of means. -/
theorem v22_lo (x0 : FVec Ideal S100000x64 .f32) (x1 : IVec S2x1200000 32) (p : Fin 100000) (j : Fin 64) :
    val_main_v22 (F := Ideal) x0 x1 (ix2 p (Cert.Spec.lo j)) = val_main_v21 (F := Ideal) x0 x1 (ix2 p j) := by
  unfold val_main_v22
  generalize val_main_v21 (F := Ideal) x0 x1 = y
  exact concatenate_pair_apply_left (1 : Fin S100000x128.rank) y x0
    Gen.concatenates_S100000x64_S100000x64_S100000x128_d1 (ix2 p (Cert.Spec.lo j)) rfl (ix2 p j)
    (fun b => match b with
      | ⟨0, _⟩ => rfl
      | ⟨1, _⟩ => rfl)

/-- The joined array at a column of the second half is the array of node features. -/
theorem v22_hi (x0 : FVec Ideal S100000x64 .f32) (x1 : IVec S2x1200000 32) (p : Fin 100000) (j : Fin 64) :
    val_main_v22 (F := Ideal) x0 x1 (ix2 p (Cert.Spec.hi j)) = x0 (ix2 p j) := by
  unfold val_main_v22
  generalize val_main_v21 (F := Ideal) x0 x1 = y
  exact concatenate_pair_apply_right (1 : Fin S100000x128.rank) y x0
    Gen.concatenates_S100000x64_S100000x64_S100000x128_d1 (ix2 p (Cert.Spec.hi j)) rfl rfl (ix2 p j)
    (fun b => match b with
      | ⟨0, _⟩ => fun _ => rfl
      | ⟨1, _⟩ => fun h => absurd rfl h)
    (by show j.val + 64 = 64 + j.val; omega)

/-- The first weight matrix transposed, at an index. -/
theorem v23_at (x2 : FVec Ideal S128x128 .f32) (l k : Fin 128) :
    val_main_v23 (F := Ideal) x2 (ix2 l k) = x2 (ix2 k l) :=
  (val_main_v23_apply (F := Ideal) x2 (ix2 l k)).trans (congrArg x2 (funext fun a => match a with
    | ⟨0, _⟩ => rfl
    | ⟨1, _⟩ => rfl))

/-- The second weight matrix transposed, at an index. -/
theorem v29_at (x4 : FVec Ideal S128x128 .f32) (k q : Fin 128) :
    val_main_v29 (F := Ideal) x4 (ix2 k q) = x4 (ix2 q k) :=
  (val_main_v29_apply (F := Ideal) x4 (ix2 k q)).trans (congrArg x4 (funext fun a => match a with
    | ⟨0, _⟩ => rfl
    | ⟨1, _⟩ => rfl))

/-- The first bias copied down the rows, at an index. -/
theorem v26_at (x3 : FVec Ideal S128 .f32) (p : Fin 100000) (k : Fin 128) :
    val_main_v26 (F := Ideal) x3 (ix2 p k) = x3 (ix1 k) :=
  (val_main_v26_apply (F := Ideal) x3 (ix2 p k)).trans ((val_main_v25_apply (F := Ideal) x3 _).trans (congrArg x3 (funext fun a => match a with
    | ⟨0, _⟩ => rfl)))

/-- The second bias copied down the rows, at an index. -/
theorem v32_at (x5 : FVec Ideal S128 .f32) (p : Fin 100000) (q : Fin 128) :
    val_main_v32 (F := Ideal) x5 (ix2 p q) = x5 (ix1 q) :=
  (val_main_v32_apply (F := Ideal) x5 (ix2 p q)).trans ((val_main_v31_apply (F := Ideal) x5 _).trans (congrArg x5 (funext fun a => match a with
    | ⟨0, _⟩ => rfl)))

/-- The array the clamp compares against is 0 everywhere. -/
theorem call1_v0_at (i : S100000x128.Idx) : val_main_call1_v0 (F := Ideal) i = 0 :=
  (val_main_call1_v0_apply (F := Ideal) i).trans
    ((val_main_call1_cst_apply (F := Ideal) _).trans ((Ideal.ofBits_def _).trans Ideal.ofBits_zero_f32))

/-- Where the first product reads its left operand: row p, column l. -/
theorem lidx24 (p : Fin 100000) (k l : Fin 128) : lidx_main_v24 (ix2 p k) l = ix2 p l :=
  funext fun a => match a with
    | ⟨0, _⟩ => rfl
    | ⟨1, _⟩ => rfl

/-- Where the first product reads its right operand: row l, column k. -/
theorem ridx24 (p : Fin 100000) (k l : Fin 128) : ridx_main_v24 (ix2 p k) l = ix2 l k :=
  funext fun a => match a with
    | ⟨0, _⟩ => rfl
    | ⟨1, _⟩ => rfl

/-- Where the second product reads its left operand: row p, column k. -/
theorem lidx30 (p : Fin 100000) (q k : Fin 128) : lidx_main_v30 (ix2 p q) k = ix2 p k :=
  funext fun a => match a with
    | ⟨0, _⟩ => rfl
    | ⟨1, _⟩ => rfl

/-- Where the second product reads its right operand: row k, column q. -/
theorem ridx30 (p : Fin 100000) (q k : Fin 128) : ridx_main_v30 (ix2 p q) k = ix2 k q :=
  funext fun a => match a with
    | ⟨0, _⟩ => rfl
    | ⟨1, _⟩ => rfl

/-- The first product at (p, k): the sum over the 128 joined columns, split into the means' half and the features' half. -/
theorem v24_at (x0 : FVec Ideal S100000x64 .f32) (x1 : IVec S2x1200000 32) (x2 : FVec Ideal S128x128 .f32)
    (p : Fin 100000) (k : Fin 128) :
    val_main_v24 (F := Ideal) x0 x1 x2 (ix2 p k)
      = (∑ j : Fin 64, val_main_v21 (F := Ideal) x0 x1 (ix2 p j) * x2 (ix2 k (Cert.Spec.lo j)))
        + ∑ j : Fin 64, x0 (ix2 p j) * x2 (ix2 k (Cert.Spec.hi j)) := by
  refine (val_main_v24_apply x0 x1 x2 (ix2 p k)).trans ?_
  have e : ∀ l : Fin 128,
      val_main_v22 (F := Ideal) x0 x1 (lidx_main_v24 (ix2 p k) l) * val_main_v23 (F := Ideal) x2 (ridx_main_v24 (ix2 p k) l)
        = val_main_v22 (F := Ideal) x0 x1 (ix2 p l) * x2 (ix2 k l) := fun l =>
    congrArg₂ (· * ·)
      (congrArg (val_main_v22 (F := Ideal) x0 x1) (lidx24 p k l))
      ((congrArg (val_main_v23 (F := Ideal) x2) (ridx24 p k l)).trans (v23_at x2 l k))
  refine (Finset.sum_congr rfl fun l _ => e l).trans ?_
  refine (Cert.Spec.sum_lo_hi (fun l => val_main_v22 (F := Ideal) x0 x1 (ix2 p l) * x2 (ix2 k l))).trans ?_
  exact congrArg₂ (· + ·)
    (Finset.sum_congr rfl fun j _ => congrArg (· * x2 (ix2 k (Cert.Spec.lo j))) (v22_lo x0 x1 p j))
    (Finset.sum_congr rfl fun j _ => congrArg (· * x2 (ix2 k (Cert.Spec.hi j))) (v22_hi x0 x1 p j))

/-- The hidden unit k of row p: the first product plus the bias, clamped below at 0. -/
theorem v28_at (x0 : FVec Ideal S100000x64 .f32) (x1 : IVec S2x1200000 32) (x2 : FVec Ideal S128x128 .f32)
    (x3 : FVec Ideal S128 .f32) (p : Fin 100000) (k : Fin 128) :
    val_main_v28 (F := Ideal) x0 x1 x2 x3 (ix2 p k)
      = max (((∑ j : Fin 64, val_main_v21 (F := Ideal) x0 x1 (ix2 p j) * x2 (ix2 k (Cert.Spec.lo j)))
          + ∑ j : Fin 64, x0 (ix2 p j) * x2 (ix2 k (Cert.Spec.hi j))) + x3 (ix1 k)) 0 := by
  refine (val_main_v28_apply (F := Ideal) x0 x1 x2 x3 (ix2 p k)).trans ?_
  refine (Ideal.maximumf_def _ _).trans ?_
  refine congrArg₂ max ?_ (call1_v0_at _)
  refine (val_main_v27_apply (F := Ideal) x0 x1 x2 x3 (ix2 p k)).trans ?_
  refine (Ideal.addf_def _ _).trans ?_
  exact congrArg₂ (· + ·) (v24_at x0 x1 x2 p k) (v26_at x3 p k)

/-- The reference's result is the specification, at every index. -/
theorem ref_eq (x0 : FVec Ideal S100000x64 .f32) (x1 : IVec S2x1200000 32) (x2 : FVec Ideal S128x128 .f32)
    (x3 : FVec Ideal S128 .f32) (x4 : FVec Ideal S128x128 .f32) (x5 : FVec Ideal S128 .f32) :
    val_main_v33 (F := Ideal) x0 x1 x2 x3 x4 x5 = Cert.Spec.G (val_main_v21 (F := Ideal) x0 x1) x0 x2 x3 x4 x5 := by
  funext i
  obtain ⟨p, q, rfl⟩ : ∃ (p : Fin 100000) (q : Fin 128), i = ix2 p q := ⟨i 0, i 1, eq_ix2 i⟩
  refine Eq.trans ?_ (Cert.Spec.G_apply (val_main_v21 (F := Ideal) x0 x1) x0 x2 x3 x4 x5 p q).symm
  refine (val_main_v33_apply (F := Ideal) x0 x1 x2 x3 x4 x5 (ix2 p q)).trans ?_
  refine (Ideal.addf_def _ _).trans ?_
  refine congrArg₂ (· + ·) ?_ (v32_at x5 p q)
  refine (val_main_v30_apply x0 x1 x2 x3 x4 (ix2 p q)).trans ?_
  refine Finset.sum_congr rfl fun k _ => ?_
  exact congrArg₂ (· * ·)
    ((congrArg (val_main_v28 (F := Ideal) x0 x1 x2 x3) (lidx30 p q k)).trans (v28_at x0 x1 x2 x3 p k))
    ((congrArg (val_main_v29 (F := Ideal) x4) (ridx30 p q k)).trans (v29_at x4 k q))

end Cert.RefValue

end
-- ==== Proof.lean ====
/-
  The certificate of a graph-network layer: mean aggregation over incoming edges followed by a two-layer perceptron,
  the kernel against its plain-array reference, equal on the extended reals.

  Both programs gather the sender rows of the node features, add them at the receiver rows and divide by the clamped
  number of incoming edges (the aggregated mean A); then out = max(concat(A, X)·W1ᵀ + b1, 0)·W2ᵀ + b2 in the
  reference, and in the kernel, per block of 5000 rows, max(A·W1aᵀ + X·W1bᵀ + b1, 0)·W2ᵀ + b2 with W1a, W1b the two
  column halves of W1.  Three facts join them: the integer edge count the kernel converts to a float is the float
  count the reference adds up (fewer than 2^31 edges); a sum over the 128 concatenated columns is the sum over the
  first 64 plus the sum over the last 64; and the blocks of rows tile the result.  None needs finiteness of the
  inputs: only commutativity and associativity of addition on the extended reals are used.  No operation was
  rewritten by the idealization, so the kernel's idealization is the kernel's own text and nothing is owed for it.
-/
import proofs.«116296_j82162724372842_2_alg».proof.Defs
import proofs.«116296_j82162724372842_2_alg».proof.Proof.Gen.Kernel
import proofs.«116296_j82162724372842_2_alg».proof.Proof.Gen.Kernel.Skeleton
import proofs.«116296_j82162724372842_2_alg».proof.Proof.Gen.Kernel.Launch
import proofs.«116296_j82162724372842_2_alg».proof.Proof.Gen.Kernel.Points
import proofs.«116296_j82162724372842_2_alg».proof.Proof.Gen.Kernel.Frame
import proofs.«116296_j82162724372842_2_alg».proof.Proof.Gen.KernelIdeal
import proofs.«116296_j82162724372842_2_alg».proof.Proof.Gen.KernelIdeal.Skeleton
import proofs.«116296_j82162724372842_2_alg».proof.Proof.Gen.KernelIdeal.Launch
import proofs.«116296_j82162724372842_2_alg».proof.Proof.Gen.KernelIdeal.Points
import proofs.«116296_j82162724372842_2_alg».proof.Proof.Gen.KernelIdeal.Frame
import proofs.«116296_j82162724372842_2_alg».proof.Proof.Gen.ReferenceIdeal
import proofs.«116296_j82162724372842_2_alg».proof.Proof.Gen.Pre_finite_inputs
import proofs.«116296_j82162724372842_2_alg».proof.Proof.Gen.KernelIdeal.Value
import proofs.«116296_j82162724372842_2_alg».proof.Proof.Gen.ReferenceIdeal.Run
import proofs.«116296_j82162724372842_2_alg».proof.Proof.Gen.ReferenceIdeal.Read
import proofs.«116296_j82162724372842_2_alg».proof.Proof.Spec
import proofs.«116296_j82162724372842_2_alg».proof.Proof.Payload
import proofs.«116296_j82162724372842_2_alg».proof.Proof.Blocks
import proofs.«116296_j82162724372842_2_alg».proof.Proof.HostLayout
import proofs.«116296_j82162724372842_2_alg».proof.Proof.AggMean
import proofs.«116296_j82162724372842_2_alg».proof.Proof.RefValue
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is a straight line of array operations: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The kernel's result array after the run, as the two-layer expression of the ARGUMENTS: the blocks tile it, the
    arrays the region finds are the aggregated mean, the node features, and the re-laid weights and biases. -/
theorem kernel_result (m : (ℓ : Loc Cert.KernelIdeal.nD Cert.KernelIdeal.τ Cert.KernelIdeal.sig) → Buf (Elt Ideal) ℓ)
    (c : Dev Cert.KernelIdeal.nD) :
    ((Cert.KernelIdeal.Gen.dats m 0 c).arrAt 7 Cert.KernelIdeal.cfg0.N : Cert.KernelIdeal.S100000x128.Idx → EReal)
      = Cert.Spec.G
          (Cert.ReferenceIdeal.Read.val_main_v21 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  rw [Cert.KernelValue.final7 m Cert.KernelValue.pay_eq c, Cert.KernelValue.V_v23 m c, Cert.KernelIdeal.Gen.V_main_arg0 m c,
    Cert.KernelValue.V_v26 m c, Cert.KernelValue.V_v27 m c, Cert.KernelValue.V_v28 m c, Cert.KernelValue.V_v29 m c,
    Cert.KernelValue.V_v30 m c]
  rfl

/-- From memories agreeing on the arguments both idealized programs end with the same result array: the kernel's by
    `kernel_result`, the reference's by reading its operations one at a time. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G
      (Cert.ReferenceIdeal.Read.val_main_v21 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1)))
      (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · exact (θ_run Cert.KernelIdeal.defs _ _).mono (fun r h c => ⟨(h c).1.trans (kernel_result m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v33_eq, Cert.RefValue.ref_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
